-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S4096x1024 : Shape := ⟨2, ![4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8x2048x1024 .f32) (main_arg1 : FVec F S4096x1024 .f32) (main_arg2 : FVec F S4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S8x2048x1024 : Shape := ⟨3, ![8, 2048, 1024]⟩
abbrev S4096x1024 : Shape := ⟨2, ![4096, 1024]⟩
abbrev S16384x1024 : Shape := ⟨2, ![16384, 1024]⟩
abbrev S1024x1024 : Shape := ⟨2, ![1024, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S4096x1024, .f32⟩
  | .hbm, ⟨2, _⟩ => ⟨S4096x1024, .f32⟩
  | .hbm, ⟨3, _⟩ => ⟨S16384x1024, .f32⟩
  | .hbm, ⟨4, _⟩ => ⟨S4096x1024, .bf16⟩
  | .hbm, ⟨5, _⟩ => ⟨S1024x1024, .f32⟩
  | .hbm, ⟨6, _⟩ => ⟨S1024x1024, .bf16⟩
  | .hbm, ⟨7, _⟩ => ⟨S16384x1024, .f32⟩
  | .hbm, ⟨8, _⟩ => ⟨S8x2048x1024, .f32⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x2048x1024_S16384x1024 : S8x2048x1024.ShapeCasts S16384x1024
  bitsLt_bf16_f32 : FTy.bits .bf16 < FTy.bits .f32
  slices_S4096x1024_S1024x1024_0_0 : S4096x1024.Slices ![0, 0] S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  slices_S256x4096_o0_0_S256x1024 : S256x4096.Slices ![0, 0] S256x1024
  reduces_S256x4096_S256 : S256x4096.Reduces [1] S256
  shapeCasts_S256_S256x1 : S256.ShapeCasts S256x1
  broadcasts_S256x1_S256x1024 : S256x1.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x1024_S8x2048x1024 : S16384x1024.ShapeCasts S8x2048x1024
  dot_S256x1024_S4096x1024_S256x4096_1_1_0_0_n_n_wf : DotDims.WF S256x1024 S4096x1024 S256x4096 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S4096x1024 : Shape := ⟨2, ![4096, 1024]⟩
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4096x1024, .f32⟩
  | .hbm, ⟨2, _⟩ => ⟨S4096x1024, .f32⟩
  | .hbm, ⟨3, _⟩ => ⟨S16384x1024, .f32⟩
  | .hbm, ⟨4, _⟩ => ⟨S1024x4096, .f32⟩
  | .hbm, ⟨5, _⟩ => ⟨S16384x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S1024x1024, .f32⟩
  | .hbm, ⟨42, _⟩ => ⟨S16384x1024, .f32⟩
  | .hbm, ⟨43, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  shapeCasts_S8x2048x1024_S16384x1024 : S8x2048x1024.ShapeCasts S16384x1024
  transposes_S4096x1024_S1024x4096_1_0 : S4096x1024.Transposes [1, 0] S1024x4096
  bcast_S_S16384x4096 : S_.BroadcastsInDim S16384x4096 (![] : Fin 0 → Fin S16384x4096.rank)
  slices_S16384x4096_S16384x1024_0_0 : S16384x4096.Slices ![0, 0] S16384x1024
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  slices_S4096x1024_S1024x1024_0_0 : S4096x1024.Slices ![0, 0] S1024x1024
  shapeCasts_S16384x1024_S8x2048x1024 : S16384x1024.ShapeCasts S8x2048x1024
  dot_S16384x1024_S1024x4096_S16384x4096_1_0_0_1_n_n_wf : DotDims.WF S16384x1024 S1024x4096 S16384x4096 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.RowMlp.lean ====
/-
  One row of the two-layer map with self-normalised activations, on the extended reals.

  Every output row depends on ONE input row. For a row `x` (1024 entries), a first weight matrix `W` (4096 × 1024) and
  a second one `U` (1024 × 1024):
    z h      = Σ_k x k · W (h, k)                              the 4096 hidden pre-activations;
    p h      = σ (5 · (clip z h to [-10, 10] − 1/2))             σ the logistic function 1 / (1 + e^(−t));
    n        = (Σ_h p h) · 2⁻¹⁰                                  the mean of the 4096 activations over 1024 of them;
    c s      = p s / (p s + ε) · n          for s < 1024         the first 1024 activations, each against itself plus ε;
    out o    = Σ_s c s · U (s, o).
  The clip is written max-then-min and ε, 5, 1/2, ±10 are kept as the float words both programs spell, never evaluated.
  The whole result stacks the rows: entry (r, o) is `out o` of row r.

  Two scalar facts relate the two spellings of this map: the logistic function written out with the word for 1.0, and a
  quotient by 1024 as a product with 2⁻¹⁰ — true of EVERY extended real, since 1024 is a nonzero real.
-/
import Idealize.ShloMosaic.PureOps.Ideal
import Idealize.ShloMosaic.PureOps.Ideal.Laws
import Idealize.ShloMosaic.Lib.ValueIdx

noncomputable section

namespace Cert.RowMlp

open Idealize.ShloMosaic Idealize.ShloMosaic.ValueIdx

/-! ## The float words that are read as numbers -/

/-- The word of `1.0` is the number 1. -/
theorem word_one : Ideal.ofBits .f32 0x3F800000#32 = 1 := by
  simp [Ideal.ofBits, Ideal.ieee, -EReal.coe_mul]; norm_num

/-- The word of `1024.0` is the real 1024. -/
theorem word_1024 : Ideal.ofBits .f32 0x44800000#32 = ((1024 : ℝ) : EReal) := by
  simp [Ideal.ofBits, Ideal.ieee, -EReal.coe_mul]; norm_num

/-- The word of `9.765625e-4` is the real 1/1024: the reciprocal of a power of two is a float. -/
theorem word_inv_1024 : Ideal.ofBits .f32 0x3A800000#32 = ((1 / 1024 : ℝ) : EReal) := by
  simp [Ideal.ofBits, Ideal.ieee, -EReal.coe_mul]; norm_num

/-! ## The two scalar laws -/

/-- A quotient by 1024 is the product with 2⁻¹⁰, on every extended real. -/
theorem div_1024 (s : EReal) :
    Ideal.div s (Ideal.ofBits .f32 0x44800000#32) = s * Ideal.ofBits .f32 0x3A800000#32 := by
  rw [word_1024, word_inv_1024]
  exact Ideal.div_coe (by norm_num) s

/-- The logistic function written out, 1 / (1 + e^(−t)) with the word for 1.0, is the logistic function. -/
theorem logistic_written_out (t : EReal) :
    Ideal.div (Ideal.ofBits .f32 0x3F800000#32) (Ideal.ofBits .f32 0x3F800000#32 + Ideal.exp (-t)) = Ideal.logistic t := by
  rw [word_one]; rfl

/-! ## One row -/

/-- The hidden activation `p h` of a row. -/
def hidden (x : Fin 1024 → EReal) (W : (⟨2, ![4096, 1024]⟩ : Shape).Idx → EReal) (h : Fin 4096) : EReal :=
  Ideal.logistic (Ideal.ofBits .f32 0x40A00000#32 *
    (min (Ideal.ofBits .f32 0x41200000#32) (max (Ideal.ofBits .f32 0xC1200000#32) (∑ k : Fin 1024, x k * W (ix2 h k)))
      - Ideal.ofBits .f32 0x3F000000#32))

/-- The row's scale `n`: the sum of its 4096 activations times 2⁻¹⁰. -/
def scale (x : Fin 1024 → EReal) (W : (⟨2, ![4096, 1024]⟩ : Shape).Idx → EReal) : EReal :=
  (∑ h : Fin 4096, hidden x W h) * Ideal.ofBits .f32 0x3A800000#32

/-- Column `s < 1024` among the 4096 hidden columns. -/
abbrev firstCols (s : Fin 1024) : Fin 4096 := ⟨s.val, by have := s.isLt; omega⟩

/-- The correction `c s`. -/
def correction (x : Fin 1024 → EReal) (W : (⟨2, ![4096, 1024]⟩ : Shape).Idx → EReal) (s : Fin 1024) : EReal :=
  Ideal.div (hidden x W (firstCols s)) (hidden x W (firstCols s) + Ideal.ofBits .f32 0x322BCC77#32) * scale x W

/-- The row's output entry `out o`. -/
def rowOut (x : Fin 1024 → EReal) (W : (⟨2, ![4096, 1024]⟩ : Shape).Idx → EReal)
    (U : (⟨2, ![1024, 1024]⟩ : Shape).Idx → EReal) (o : Fin 1024) : EReal :=
  ∑ s : Fin 1024, correction x W s * U (ix2 s o)

/-- The whole result, 16384 rows stacked: entry (r, o) is `out o` of row r. -/
def stacked (X : (⟨2, ![16384, 1024]⟩ : Shape).Idx → EReal) (W : (⟨2, ![4096, 1024]⟩ : Shape).Idx → EReal)
    (U : (⟨2, ![1024, 1024]⟩ : Shape).Idx → EReal) : (⟨2, ![16384, 1024]⟩ : Shape).Idx → EReal :=
  fun i => rowOut (fun k => X (ix2 (i 0) k)) W U (i 1)

end Cert.RowMlp

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.BlockPayload.lean ====
/-
  What the kernel's body computes on one block of 256 rows, read at an entry.

  The body's stored value is a composition of three stages on the block `x` (256 × 1024), the first weights `W`
  (4096 × 1024, whole) and the second weights `U` (1024 × 1024, whole):
    the hidden activations   p = σ (5 · (clip (x · Wᵀ) − 1/2))        (256 × 4096; the product contracts both last axes),
    the corrections          c = p[:, :1024] / (p[:, :1024] + ε) · n   (n the row sums of p times 2⁻¹⁰, kept as a column
                                                                        and spread over the 1024 columns),
    the output               c · U                                      (256 × 1024).
  Changes of float format on the way into each product are the identity on extended reals, and so are the casts of a
  shape to itself. Read at entry (r, o) this is the row map of `RowMlp` applied to row r of the block: every stage reads
  only row r.
-/
import proofs.«148544_j10033043604250_1_alg».proof.Proof.Gen.KernelIdeal.Skeleton
import proofs.«148544_j10033043604250_1_alg».proof.Proof.RowMlp
import proofs.«148544_j10033043604250_1_alg».proof.Proof.LibKeepdims
import proofs.«148544_j10033043604250_1_alg».proof.Proof.LibMatmulRhsT
import proofs.«148544_j10033043604250_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx Idealize.SL.Sem
open Cert.KernelIdeal Cert.KernelIdeal.Facts₀ Cert.RowMlp

variable [Cert.KernelIdeal.Facts]

/-! ## The three stages -/

/-- The block's hidden activations `p`. -/
def blockHidden (x0 : Vec Ideal S256x1024 .f32) (x1 : Vec Ideal S4096x1024 .bf16) : FVec Ideal S256x4096 .f32 :=
  logistic (mulf (broadcast S256x4096 (Scalar.ofBits .f32 0x40A00000#32))
    (subf
      (minimumf (broadcast S256x4096 (Scalar.ofBits .f32 0x41200000#32))
        (maximumf (broadcast S256x4096 (Scalar.ofBits .f32 0xC1200000#32))
          (matmul dot_S256x1024_S4096x1024_S256x4096_1_1_0_0_n_n none
            (truncf .bf16 (shapeCast S256x1024 x0 shapeCasts_S256x1024_S256x1024 : FVec Ideal S256x1024 .f32) bitsLt_bf16_f32 : FVec Ideal S256x1024 .bf16)
            (shapeCast S4096x1024 x1 shapeCasts_S4096x1024_S4096x1024 : FVec Ideal S4096x1024 .bf16)
            (constant S256x4096 .f32 0x00000000#32))))
      (broadcast S256x4096 (Scalar.ofBits .f32 0x3F000000#32))))

/-- The block's corrections `c`, from its hidden activations. -/
def blockCorrection (q : FVec Ideal S256x4096 .f32) : FVec Ideal S256x1024 .f32 :=
  mulf
    (divf (extractStridedSlice S256x1024 ![0, 0] q slices_S256x4096_o0_0_S256x1024)
      (addf (extractStridedSlice S256x1024 ![0, 0] q slices_S256x4096_o0_0_S256x1024)
        (broadcast S256x1024 (Scalar.ofBits .f32 0x322BCC77#32))))
    (broadcastTo S256x1024
      (mulf
        (shapeCast S256x1 (multiReduction .add [1] S256 q 0x00000000#32 reduces_S256x4096_S256 (.inl rfl) rfl)
          shapeCasts_S256_S256x1)
        (broadcast S256x1 (Scalar.ofBits .f32 0x3A800000#32)))
      broadcasts_S256x1_S256x1024)

/-- The block's output, from its corrections. -/
def blockOut (c : FVec Ideal S256x1024 .f32) (x2 : Vec Ideal S1024x1024 .bf16) : FVec Ideal S256x1024 .f32 :=
  matmul dot_S256x1024_S1024x1024_S256x1024_1_0_0_1_n_n none (truncf .bf16 c bitsLt_bf16_f32 : FVec Ideal S256x1024 .bf16)
    (shapeCast S1024x1024 x2 shapeCasts_S1024x1024_S1024x1024 : FVec Ideal S1024x1024 .bf16) (constant S256x1024 .f32 0x00000000#32)

/-- The body's stored value is the three stages composed. -/
theorem payload_split (x0 : Vec Ideal S256x1024 .f32) (x1 : Vec Ideal S4096x1024 .bf16) (x2 : Vec Ideal S1024x1024 .bf16) :
    Gen.k0_pay1 (F := Ideal) x0 x1 x2 = blockOut (blockCorrection (blockHidden x0 x1)) x2 := rfl

/-! ## Each stage at an entry -/

/-- Hidden activation (r, h) of the block is the row map's `p h` of row r. -/
theorem blockHidden_apply (x0 : Vec Ideal S256x1024 .f32) (x1 : Vec Ideal S4096x1024 .bf16) (r : Fin 256) (h : Fin 4096) :
    blockHidden x0 x1 (ix2 r h) = hidden (fun k => x0 (ix2 r k)) x1 h := by
  have hz : matmul dot_S256x1024_S4096x1024_S256x4096_1_1_0_0_n_n none
        (truncf .bf16 (shapeCast S256x1024 x0 shapeCasts_S256x1024_S256x1024 : FVec Ideal S256x1024 .f32) bitsLt_bf16_f32 : FVec Ideal S256x1024 .bf16)
        (shapeCast S4096x1024 x1 shapeCasts_S4096x1024_S4096x1024 : FVec Ideal S4096x1024 .bf16)
        (constant S256x4096 .f32 0x00000000#32) (ix2 r h)
      = ∑ k : Fin 1024, x0 (ix2 r k) * x1 (ix2 h k) := by
    rw [shapeCast_self, shapeCast_self]
    exact Cert.LibMatmulRhsT.matmul_transposedRhs_zero_apply 256 1024 4096 none _ _ r h
  exact congrArg (fun z : EReal => Ideal.logistic (Ideal.ofBits .f32 0x40A00000#32 *
    (min (Ideal.ofBits .f32 0x41200000#32) (max (Ideal.ofBits .f32 0xC1200000#32) z) - Ideal.ofBits .f32 0x3F000000#32))) hz

/-- Correction (r, s) of the block, from hidden activations `q`: entry (r, s) against itself plus ε, times the sum of
    row r of `q` times 2⁻¹⁰. -/
theorem blockCorrection_apply (q : FVec Ideal S256x4096 .f32) (r : Fin 256) (s : Fin 1024) :
    blockCorrection q (ix2 r s)
      = Ideal.div (q (ix2 r (firstCols s))) (q (ix2 r (firstCols s)) + Ideal.ofBits .f32 0x322BCC77#32)
          * ((∑ h : Fin 4096, q (ix2 r h)) * Ideal.ofBits .f32 0x3A800000#32) := by
  have hs : extractStridedSlice S256x1024 ![0, 0] q slices_S256x4096_o0_0_S256x1024 (ix2 r s) = q (ix2 r (firstCols s)) :=
    extractStridedSlice_apply _ q _ _ _ (fun a => by
      match a with
      | ⟨0, _⟩ => exact (Nat.zero_add _).symm
      | ⟨1, _⟩ => exact (Nat.zero_add _).symm)
  have hsum : multiReduction .add [1] S256 q 0x00000000#32 reduces_S256x4096_S256 (.inl rfl) rfl (ix1 r)
      = ∑ h : Fin 4096, q (ix2 r h) :=
    Cert.LibKeepdims.multiReduction_add_lastAxis_apply q 0x00000000#32 reduces_S256x4096_S256 (.inl rfl) rfl r
  have hn : broadcastTo S256x1024
        (mulf
          (shapeCast S256x1 (multiReduction .add [1] S256 q 0x00000000#32 reduces_S256x4096_S256 (.inl rfl) rfl)
            shapeCasts_S256_S256x1)
          (broadcast S256x1 (Scalar.ofBits .f32 0x3A800000#32)))
        broadcasts_S256x1_S256x1024 (ix2 r s)
      = (∑ h : Fin 4096, q (ix2 r h)) * Ideal.ofBits .f32 0x3A800000#32 := by
    refine (Cert.LibKeepdims.broadcastTo_a1_ab_apply _ broadcasts_S256x1_S256x1024 r s 0).trans ?_
    refine congrArg (· * Ideal.ofBits .f32 0x3A800000#32) ?_
    exact (Cert.LibKeepdims.shapeCast_a_a1_apply _ shapeCasts_S256_S256x1 r 0).trans hsum
  unfold blockCorrection
  show Ideal.div (extractStridedSlice S256x1024 ![0, 0] q slices_S256x4096_o0_0_S256x1024 (ix2 r s))
      (extractStridedSlice S256x1024 ![0, 0] q slices_S256x4096_o0_0_S256x1024 (ix2 r s) + Ideal.ofBits .f32 0x322BCC77#32)
      * _ = _
  rw [hs, hn]

/-- Output (r, o) of the block, from corrections `c`: Σ_s c (r, s) · U (s, o). -/
theorem blockOut_apply (c : FVec Ideal S256x1024 .f32) (x2 : Vec Ideal S1024x1024 .bf16) (r : Fin 256) (o : Fin 1024) :
    blockOut c x2 (ix2 r o) = ∑ s : Fin 1024, c (ix2 r s) * x2 (ix2 s o) := by
  unfold blockOut
  rw [shapeCast_self]
  exact matmul_plain_zero_apply 256 1024 1024 none _ _ r o

/-! ## The body's stored value at an entry -/

/-- Entry (r, o) of what the body stores is the row map's `out o` of row r of the block. -/
theorem payload_apply (x0 : Vec Ideal S256x1024 .f32) (x1 : Vec Ideal S4096x1024 .bf16) (x2 : Vec Ideal S1024x1024 .bf16)
    (r : Fin 256) (o : Fin 1024) :
    Gen.k0_pay1 (F := Ideal) x0 x1 x2 (ix2 r o) = rowOut (fun k => x0 (ix2 r k)) x1 x2 o := by
  rw [payload_split, blockOut_apply]
  unfold rowOut
  refine Finset.sum_congr rfl fun s _ => congrArg (· * x2 (ix2 s o)) ?_
  rw [blockCorrection_apply]
  unfold correction scale
  simp only [blockHidden_apply]

end Cert.KernelIdeal.Block

end
-- ==== Proof.KernelArray.lean ====
/-
  The kernel's result array, from its blocks.

  The grid has 64 points; point t reads rows 256·t … 256·t + 255 of the (reshaped) input, the whole of both weight
  matrices, and writes back rows 256·t … 256·t + 255 of the 16384 × 1024 result. What it writes is the body's stored
  value on that block, which at entry (r, o) is the row map's `out o` of row r of the block — row 256·t + r of the input.
  So every point writes back a block of ONE matrix, the row map stacked over the input rows, and since the 64 row blocks
  cover all 16384 rows, the array after the run is that matrix.

  Before the region the host reshapes the input to 16384 × 1024, changes the first weights' format (the identity on
  extended reals) and takes the first 1024 rows of the second weights (again with a change of format); after it, the host
  reshapes the result to 8 × 2048 × 1024.
-/
import proofs.«148544_j10033043604250_1_alg».proof.Proof.Gen.KernelIdeal.Frame
import proofs.«148544_j10033043604250_1_alg».proof.Proof.BlockPayload
import Idealize.ShloMosaic.Lib.Pipeline.Value
import Idealize.ShloMosaic.Lib.StableHlo.Run

set_option maxRecDepth 16384

noncomputable section

namespace Cert.KernelIdeal.Rows

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.RowMlp

variable (m : (ℓ : Loc nD τ sig) → Buf (Elt Ideal) ℓ) (ρ : Dev nD → PrngReg)

/-! ## The arrays as the region finds them -/

/-- The region's input array is the argument reshaped to 16384 × 1024. -/
theorem V_input (c : Dev nD) : (V m c main_v0 : S16384x1024.Idx → EReal)
    = shapeCast S16384x1024 (m ((c : Thread nD τ).loc main_arg0)) shapeCasts_S8x2048x1024_S16384x1024 := by
  show StableHlo.after hostOps0 (fun b => m (c, b)) (Proc.devRef .tc main_v0) = _
  after_results
  rfl

/-- The region's first weights are the argument: the change of format is the identity. -/
theorem V_weights1 (c : Dev nD) : (V m c main_v1 : S4096x1024.Idx → EReal) = m ((c : Thread nD τ).loc main_arg1) := by
  show StableHlo.after hostOps0 (fun b => m (c, b)) (Proc.devRef .tc main_v1) = _
  after_results
  rfl

/-- The region's second weights are the first 1024 rows of the argument. -/
theorem V_weights2 (c : Dev nD) : (V m c main_v3 : S1024x1024.Idx → EReal)
    = extractStridedSlice S1024x1024 ![0, 0] (m ((c : Thread nD τ).loc main_arg2)) slices_S4096x1024_S1024x1024_0_0 := by
  show StableHlo.after hostOps0 (fun b => m (c, b)) (Proc.devRef .tc main_v3) = _
  after_results
  rfl

/-! ## What a point writes back -/

theorem offsets_zero : (![0, 0] : Fin 2 → Nat) = fun _ => 0 := funext fun a => by fin_cases a <;> rfl

/-- The block indices at point t: input and result blocks are row block t, column block 0; the weights are whole. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first weights' block at any point is the whole array. -/
theorem weights1_block (c : Dev nD) (t : Fin cfg0.N) : iblk m c 1 t = V m c main_v1 := by
  obtain ⟨-, -, e10, e11, -, -, -, -⟩ := index_facts t
  funext y
  show V m c main_v1 (((cfg0.win 1).blk t).view.emb y) = V m c main_v1 y
  refine congrArg (V m c main_v1) (funext fun a => Fin.ext ?_)
  match a with
  | ⟨0, _⟩ => show win0_1.index t (0 : Fin 2) * 4096 + 1 * (y 0).val = (y 0).val; omega
  | ⟨1, _⟩ => show win0_1.index t (1 : Fin 2) * 1024 + 1 * (y 1).val = (y 1).val; omega

/-- The second weights' block at any point is the whole array. -/
theorem weights2_block (c : Dev nD) (t : Fin cfg0.N) : iblk m c 2 t = V m c main_v3 := by
  obtain ⟨-, -, -, -, e20, e21, -, -⟩ := index_facts t
  funext y
  show V m c main_v3 (((cfg0.win 2).blk t).view.emb y) = V m c main_v3 y
  refine congrArg (V m c main_v3) (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- Row r of the input block at point t is row 256·t + r of the input array. -/
theorem input_block_row (c : Dev nD) (t : Fin cfg0.N) (r : Fin 256) (R : Fin 16384) (hR : R.val = t.val * 256 + r.val) :
    (fun k : Fin 1024 => iblk m c 0 t (ix2 r k)) = fun k => V m c main_v0 (ix2 R k) := by
  obtain ⟨e00, e01, -, -, -, -, -, -⟩ := index_facts t
  funext k
  show V m c main_v0 (((cfg0.win 0).blk t).view.emb (ix2 r k)) = V m c main_v0 (ix2 R k)
  refine congrArg (V m c main_v0) (funext fun a => Fin.ext ?_)
  match a with
  | ⟨0, _⟩ => show win0_0.index t (0 : Fin 2) * 256 + 1 * r.val = R.val; omega
  | ⟨1, _⟩ => show win0_0.index t (1 : Fin 2) * 1024 + 1 * k.val = k.val; omega

/-- Entry (r, o) of the result block at point t is entry (256·t + r, o) of the result array. -/
theorem result_block_entry (t : Fin cfg0.N) (r : Fin 256) (o : Fin 1024) (R : Fin 16384) (hR : R.val = t.val * 256 + r.val) :
    ((cfg0.win 3).blk t).view.emb (ix2 r o) = ix2 R o := by
  obtain ⟨-, -, -, -, -, -, e30, e31⟩ := index_facts t
  refine funext fun a => Fin.ext ?_
  match a with
  | ⟨0, _⟩ => show win0_3.index t (0 : Fin 2) * 256 + 1 * r.val = R.val; omega
  | ⟨1, _⟩ => show win0_3.index t (1 : Fin 2) * 1024 + 1 * o.val = o.val; omega

/-- WHAT POINT t WRITES BACK is block t of the row map stacked over the arrays as the region finds them. -/
theorem flushed_eq (c : Dev nD) (t : Fin cfg0.N) :
    (dats m 0 c).flushed 3 t
      = ((cfg0.win 3).blk t).view.read (Elt Ideal) (stacked (V m c main_v0) (V m c main_v1) (V m c main_v3)) := by
  show (cfg0.win 3).cut (grid0.coords t) ((dats m 0 c).after 3 t) = _
  rw [after0_3]
  unfold out0_3
  rw [View.canon_unit_zero offsets_zero]
  simp only [View.ld_unit_zero (S := S256x1024) offsets_zero, View.ld_unit_zero (S := S4096x1024) offsets_zero,
    View.ld_unit_zero (S := S1024x1024) offsets_zero]
  have ht : t.val < 64 := lt_of_lt_of_eq t.isLt N_0
  refine funext fun (j : S256x1024.Idx) => ?_
  obtain ⟨r, o, rfl⟩ : ∃ (r : Fin 256) (o : Fin 1024), j = ix2 r o := ⟨j 0, j 1, eq_ix2 j⟩
  obtain ⟨R, hR⟩ : ∃ R : Fin 16384, R.val = t.val * 256 + r.val := ⟨⟨t.val * 256 + r.val, by have := r.isLt; omega⟩, rfl⟩
  refine (Block.payload_apply (iblk m c 0 t) (iblk m c 1 t) (iblk m c 2 t) r o).trans ?_
  rw [input_block_row m c t r R hR, weights1_block m c t, weights2_block m c t]
  show _ = stacked (V m c main_v0) (V m c main_v1) (V m c main_v3) (((cfg0.win 3).blk t).view.emb (ix2 r o))
  rw [result_block_entry t r o R hR]
  rfl

/-! ## The array after the run -/

/-- An index of the result array is in point t's block iff each coordinate is in the block's range on its axis. -/
theorem mem_block (t : Fin cfg0.N) (i : S16384x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v4).slice (win0_3.rect t)).set ↔ _
  rw [View.set_slice_whole, Rect.mem_set_unit]
  exact Iff.rfl

/-- Every entry of the result array is in the block of the point its row falls in. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ : ∃ t : Fin cfg0.N, t.val = (i 0).val / 256 :=
    ⟨⟨(i 0).val / 256, lt_of_lt_of_eq (show (i 0).val / 256 < 64 by omega) N_0.symm⟩, rfl⟩
  refine ⟨t, flush0_3 t, ?_⟩
  rw [mem_block]
  obtain ⟨-, -, -, -, -, -, e30, e31⟩ := index_facts t
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1024 ≤ (i 1).val ∧ (i 1).val < win0_3.index t (1 : Fin 2) * 1024 + 1024
    omega

/-- THE RESULT ARRAY after the run: the row map stacked over the arrays as the region finds them. -/
theorem final (c : Dev nD) :
    (dats m 0 c).arrAt 3 cfg0.N = stacked (V m c main_v0) (V m c main_v1) (V m c main_v3) :=
  (dats m 0 c).arrAt_eq_of_cover 3 _ (fun t _ => flushed_eq m c t) covered

/-! ## The result -/

/-- The matrix the kernel computes, as a function of the argument arrays. -/
def matrix (c : Dev nD) : S16384x1024.Idx → EReal :=
  stacked (shapeCast S16384x1024 (m ((c : Thread nD τ).loc main_arg0)) shapeCasts_S8x2048x1024_S16384x1024)
    (m ((c : Thread nD τ).loc main_arg1))
    (extractStridedSlice S1024x1024 ![0, 0] (m ((c : Thread nD τ).loc main_arg2)) slices_S4096x1024_S1024x1024_0_0)

/-- The program's result: the host's reshape, after the region, of the matrix. -/
theorem result (c : Dev nD) :
    Pipeline.afterTail₀ cfgs (dats m) 0 (V0 m) [hostOps1] c main_v5
      = shapeCast S8x2048x1024 (matrix m c) shapeCasts_S16384x1024_S8x2048x1024 := by
  unfold Pipeline.afterTail₀
  show StableHlo.after hostOps1 _ (Proc.devRef .tc main_v5) = _
  after_results
  have hw : Pipeline.withArrays (cfgs 0).spec c (V0 m c) (fun w => (dats m 0 c).arrAt w (cfgs 0).N)
      (Proc.devRef .tc main_v4) = matrix m c := by
    refine ((Pipeline.withArrays_arr spec0 launch0.win.arr_inj c _ _ 3).trans (final m c)).trans ?_
    unfold matrix
    rw [V_input, V_weights1, V_weights2]
  rw [hw]
  rfl

/-! ## The run, read -/

/-- The frame run re-posted: the result at the reshaped matrix of the arguments, the arguments unchanged. -/
theorem run : θ_run defs (onTc (τ := τ) (main (F := Ideal))) ⟨m, fun _ => 0, ρ⟩ fun r => ∀ c : Dev nD,
      r.2.mem ((c.tc : Thread nD τ).loc main_v5) = shapeCast S8x2048x1024 (matrix m c) shapeCasts_S16384x1024_S8x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Rows

end
-- ==== Proof.ReferenceRows.lean ====
/-
  The reference's matrix before its final reshape is the row map, stacked.

  The reference computes on the whole 16384 × 1024 input at once: the product with the transposed first weights, the clip,
  the logistic function written out as 1 / (1 + e^(−t)), the first 1024 columns against themselves plus ε, the row sums
  divided by 1024 and spread over the columns, and the product with the first 1024 rows of the second weights. Read at
  entry (R, o) each of these reads only row R of the input, and:
    • reading the transposed weights at (k, h) is reading the weights at (h, k), so the first product is Σ_k X (R, k) · W (h, k);
    • the written-out logistic is the logistic function (`logistic_written_out`);
    • the row sum starts from the word of 0.0, which is 0, and its quotient by 1024 is its product with 2⁻¹⁰ (`div_1024`).
  So entry (R, o) is `out o` of row R: the matrix is `stacked` of the reshaped input, the first weights, and the sliced
  second weights.
-/
import proofs.«148544_j10033043604250_1_alg».proof.Proof.Gen.ReferenceIdeal.Read
import proofs.«148544_j10033043604250_1_alg».proof.Proof.RowMlp

noncomputable section

namespace Cert.ReferenceIdeal.Rows

open Idealize.ShloMosaic Idealize.ShloMosaic.ValueIdx
open Cert.ReferenceIdeal Cert.ReferenceIdeal.Read Cert.RowMlp

variable [Cert.ReferenceIdeal.Facts]

/-- The reference's activation at (R, h) is the row map's `p h` of row R of the reshaped input. -/
theorem hidden_eq (x0 : (⟨S8x2048x1024, .f32⟩ : BufTy).Contents (Elt Ideal)) (x1 : (⟨S4096x1024, .f32⟩ : BufTy).Contents (Elt Ideal))
    (R : Fin 16384) (h : Fin 4096) :
    val_main_v13 (F := Ideal) x0 x1 (ix2 R h) = hidden (fun k => val_main_v0 (F := Ideal) x0 (ix2 R k)) x1 h := by
  have hz : val_main_v2 (F := Ideal) x0 x1 (ix2 R h)
      = ∑ k : Fin 1024, val_main_v0 (F := Ideal) x0 (ix2 R k) * x1 (ix2 h k) := by
    rw [val_main_v2_apply]
    refine Finset.sum_congr rfl fun k _ => ?_
    rw [val_main_v1_apply]
    have el : lidx_main_v2 (ix2 R h) k = ix2 R k :=
      funext fun a => Fin.ext (by match a with | ⟨0, _⟩ => rfl | ⟨1, _⟩ => rfl)
    have er : idx_main_v1 (ridx_main_v2 (ix2 R h) k) = ix2 h k :=
      funext fun a => Fin.ext (by match a with | ⟨0, _⟩ => rfl | ⟨1, _⟩ => rfl)
    rw [el, er]
  rw [val_main_v13_apply, val_main_v12_apply, val_main_cst_4_apply, val_main_v11_apply, val_main_v10_apply,
    val_main_cst_3_apply, val_main_v9_apply, val_main_v8_apply, val_main_v7_apply, val_main_v6_apply, val_main_cst_2_apply,
    val_main_v5_apply, val_main_v4_apply, val_main_cst_1_apply, val_main_v3_apply, val_main_call0_v4_apply,
    val_main_call0_v3_apply, val_main_cst_0_apply, val_main_call0_v2_apply, val_main_call0_v1_apply,
    val_main_call0_v0_apply, val_main_cst_apply, hz]
  exact logistic_written_out _

/-- The reference's correction at (R, s) is the row map's `c s` of row R. -/
theorem correction_eq (x0 : (⟨S8x2048x1024, .f32⟩ : BufTy).Contents (Elt Ideal)) (x1 : (⟨S4096x1024, .f32⟩ : BufTy).Contents (Elt Ideal))
    (R : Fin 16384) (s : Fin 1024) :
    val_main_v23 (F := Ideal) x0 x1 (ix2 R s) = correction (fun k => val_main_v0 (F := Ideal) x0 (ix2 R k)) x1 s := by
  have e14 : idx_main_v14 (ix2 R s) = ix2 R (firstCols s) :=
    funext fun a => Fin.ext (by match a with | ⟨0, _⟩ => rfl | ⟨1, _⟩ => rfl)
  have e22 : idx_main_v22 (ix2 R s) = ix2 R (0 : Fin 1) :=
    funext fun a => Fin.ext (by match a with | ⟨0, _⟩ => rfl | ⟨1, _⟩ => rfl)
  have e16 : idx_main_v16 (ix2 R (0 : Fin 1)) = ix1 R :=
    funext fun a => Fin.ext (by match a with | ⟨0, _⟩ => rfl)
  have e15 : ∀ h : Fin 4096, idx_main_v15 (ix1 R) h = ix2 R h := fun h =>
    funext fun a => Fin.ext (by match a with | ⟨0, _⟩ => rfl | ⟨1, _⟩ => rfl)
  rw [val_main_v23_apply, val_main_v21_apply, val_main_v20_apply, val_main_v14_apply, e14, hidden_eq, val_main_v19_apply,
    val_main_cst_7_apply, val_main_v22_apply, e22, val_main_v18_apply, val_main_v16_apply, e16, val_main_v15_apply,
    val_main_cst_5_apply, val_main_v17_apply, val_main_cst_6_apply]
  simp only [e15, hidden_eq]
  unfold correction scale
  show Ideal.div _ (_ + _) * Ideal.div (Ideal.ofBits .f32 0x00000000#32 + _) (Ideal.ofBits .f32 0x44800000#32) = _
  rw [Ideal.ofBits_zero_f32, zero_add, div_1024]
  rfl

/-- The reference's matrix before its final reshape: the row map stacked over the reshaped input. -/
theorem matrix_eq (x0 : (⟨S8x2048x1024, .f32⟩ : BufTy).Contents (Elt Ideal)) (x1 x2 : (⟨S4096x1024, .f32⟩ : BufTy).Contents (Elt Ideal)) :
    val_main_v25 (F := Ideal) x0 x1 x2
      = stacked (val_main_v0 (F := Ideal) x0) x1 (val_main_v24 (F := Ideal) x2) := by
  funext i
  obtain ⟨R, o, rfl⟩ : ∃ (R : Fin 16384) (o : Fin 1024), i = ix2 R o := ⟨i 0, i 1, eq_ix2 i⟩
  rw [val_main_v25_apply]
  show _ = rowOut (fun k => val_main_v0 (F := Ideal) x0 (ix2 R k)) x1 (val_main_v24 (F := Ideal) x2) o
  unfold rowOut
  refine Finset.sum_congr rfl fun s _ => ?_
  have el : lidx_main_v25 (ix2 R o) s = ix2 R s :=
    funext fun a => Fin.ext (by match a with | ⟨0, _⟩ => rfl | ⟨1, _⟩ => rfl)
  have er : ridx_main_v25 (ix2 R o) s = ix2 s o :=
    funext fun a => Fin.ext (by match a with | ⟨0, _⟩ => rfl | ⟨1, _⟩ => rfl)
  rw [el, er, correction_eq]

end Cert.ReferenceIdeal.Rows

end
-- ==== Proof.lean ====
/-
  The kernel and the reference are the same function of their arguments, on the extended reals.

  Both programs reshape the input to 16384 × 1024, apply to every row the same two-layer map (Proof/RowMlp.lean:
  a product with the first weights, a clip, the logistic function, the first 1024 activations each against itself plus ε
  and scaled by the mean activation, a product with the first 1024 rows of the second weights), and reshape the result
  to 8 × 2048 × 1024. They differ in three spellings, none of which changes the value of an extended real:
    • the kernel works on 64 blocks of 256 rows, each row depending on its own input row only, so the blocks are the
      restrictions of one matrix (Proof/BlockPayload.lean, Proof/KernelArray.lean);
    • the kernel applies the logistic function as one operation where the reference writes 1 / (1 + e^(−t));
    • the kernel multiplies the row sum by 2⁻¹⁰ where the reference divides it by 1024 (Proof/ReferenceRows.lean).
  No law used needs a finite operand, so the precondition is never opened. The idealized kernel is the kernel's own text
  read at the ideal values: nothing was rewritten, and `preserves` states nothing.
-/
import proofs.«148544_j10033043604250_1_alg».proof.Defs
import proofs.«148544_j10033043604250_1_alg».proof.Proof.Gen.Kernel
import proofs.«148544_j10033043604250_1_alg».proof.Proof.Gen.Kernel.Skeleton
import proofs.«148544_j10033043604250_1_alg».proof.Proof.Gen.Kernel.Launch
import proofs.«148544_j10033043604250_1_alg».proof.Proof.Gen.Kernel.Points
import proofs.«148544_j10033043604250_1_alg».proof.Proof.Gen.Kernel.Frame
import proofs.«148544_j10033043604250_1_alg».proof.Proof.Gen.KernelIdeal
import proofs.«148544_j10033043604250_1_alg».proof.Proof.Gen.KernelIdeal.Skeleton
import proofs.«148544_j10033043604250_1_alg».proof.Proof.Gen.KernelIdeal.Launch
import proofs.«148544_j10033043604250_1_alg».proof.Proof.Gen.KernelIdeal.Points
import proofs.«148544_j10033043604250_1_alg».proof.Proof.Gen.KernelIdeal.Frame
import proofs.«148544_j10033043604250_1_alg».proof.Proof.Gen.ReferenceIdeal
import proofs.«148544_j10033043604250_1_alg».proof.Proof.Gen.Pre_finite_inputs
import proofs.«148544_j10033043604250_1_alg».proof.Proof.Gen.ReferenceIdeal.Run
import proofs.«148544_j10033043604250_1_alg».proof.Proof.Gen.ReferenceIdeal.Read
import proofs.«148544_j10033043604250_1_alg».proof.Proof.KernelArray
import proofs.«148544_j10033043604250_1_alg».proof.Proof.ReferenceRows
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading at the ideal values. -/
theorem preserves : Cert.preserves_Kernel_KernelIdeal := trivial

/-- From arguments that agree, both programs end at the reshaped matrix of the row map stacked over the input rows. -/
theorem algebraic : Cert.algebraic_KernelIdeal_ReferenceIdeal := by
  intro m ρ m' ρ' _ hagree
  refine ⟨fun c => shapeCast _ (Cert.KernelIdeal.Rows.matrix m c) Cert.KernelIdeal.Gen.shapeCasts_S16384x1024_S8x2048x1024,
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  unfold Cert.ReferenceIdeal.Read.val_main_v26
  rw [Cert.ReferenceIdeal.Rows.matrix_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
